-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : FVec F S128x128 .f32) (main_arg2 : IVec S1600000 32) (main_arg3 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 29
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x128, .f32⟩
  | .hbm, ⟨13, _⟩ => ⟨S_, .f32⟩
  | .hbm, ⟨14, _⟩ => ⟨S50000x128, .f32⟩
  | .hbm, ⟨15, _⟩ => ⟨S1600000x1, .i32⟩
  | .hbm, ⟨16, _⟩ => ⟨S50000x128, .f32⟩
  | .hbm, ⟨17, _⟩ => ⟨S_, .f32⟩
  | .hbm, ⟨18, _⟩ => ⟨S1600000x1, .f32⟩
  | .hbm, ⟨19, _⟩ => ⟨S_, .f32⟩
  | .hbm, ⟨20, _⟩ => ⟨S50000x1, .f32⟩
  | .hbm, ⟨21, _⟩ => ⟨S1600000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x256, .f32⟩
  | .local _ .vmem, ⟨6, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  concatenates_S5000x128_S5000x128_S5000x256_d1 : Shape.Concatenates [S5000x128, S5000x128] S5000x256 1
  inb_S5000x256_S5000x256_0_0 : ∀ a, (![0, 0] : Fin 2 → Nat) a + S5000x256.size a ≤ S5000x256.size a
  h_S5000x256 : 0 < S5000x256.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x256 : Shape := ⟨2, ![50000, 256]⟩

abbrev nBuf : Space → Nat
  | .hbm => 34
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S50000x128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S50000x128, .f32⟩
  | .hbm, ⟨16, _⟩ => ⟨S1600000x1, .i32⟩
  | .hbm, ⟨17, _⟩ => ⟨S50000x128, .f32⟩
  | .hbm, ⟨18, _⟩ => ⟨S_, .f32⟩
  | .hbm, ⟨19, _⟩ => ⟨S1600000x1, .f32⟩
  | .hbm, ⟨20, _⟩ => ⟨S_, .f32⟩
  | .hbm, ⟨21, _⟩ => ⟨S50000x1, .f32⟩
  | .hbm, ⟨22, _⟩ => ⟨S1600000x1, .i32⟩
  | .hbm, ⟨23, _⟩ => ⟨S50000x1, .f32⟩
  | .hbm, ⟨24, _⟩ => ⟨S_, .f32⟩
  | .hbm, ⟨25, _⟩ => ⟨S50000x1, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf

class Facts : Prop extends Facts₀ where

variable [Facts]
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Layer.lean ====
/-
  The graph layer both programs compute, as one function of its three operand arrays, entry by entry.

  With node features `f` (50000 × 128), neighbourhood means `a` (50000 × 128) and the shared weight `w`
  (128 × 128), the layer's output is the 50000 × 256 array whose row `p` is the row `p` of `f · w` followed by the
  row `p` of `a · w`, every entry then clipped below at zero:

      out (p, q) = max (Σ_{k < 128} f (p, k) · w (k, q)) 0            for q < 128,
      out (p, q) = max (Σ_{k < 128} a (p, k) · w (k, q − 128)) 0      for 128 ≤ q < 256.

  Everything is over the extended reals; the zero is kept as the float word both programs print.
-/
import Idealize.ShloMosaic.PureOps.Ideal
import Idealize.ShloMosaic.Lib.ValueIdx

noncomputable section

open scoped BigOperators

namespace Cert.Layer

open Idealize.ShloMosaic Idealize.ShloMosaic.ValueIdx

/-- Entry `(p, q)` of the product of an `M × 128` matrix with the `128 × 128` weight. -/
def prod {M : Nat} (x : FVec Ideal ⟨2, ![M, 128]⟩ .f32) (w : FVec Ideal ⟨2, ![128, 128]⟩ .f32) (p : Fin M) (q : Fin 128) :
    Ideal .f32 :=
  ∑ k : Fin 128, x (ix2 p k) * w (ix2 k q)

/-- Entry `(p, q)` of the two products laid side by side and clipped below at zero: the left half reads `f · w`, the
    right half `a · w` at the column `128` less. -/
def entry {M : Nat} (f a : FVec Ideal ⟨2, ![M, 128]⟩ .f32) (w : FVec Ideal ⟨2, ![128, 128]⟩ .f32) (p : Fin M) (q : Fin 256) :
    Ideal .f32 :=
  max (if h : q.val < 128 then prod f w p ⟨q.val, h⟩ else prod a w p ⟨q.val - 128, by have := q.isLt; omega⟩)
    (FloatOps.ofBits (F := Ideal) .f32 0x00000000#32)

/-- The layer's whole output array. -/
def out {M : Nat} (f a : FVec Ideal ⟨2, ![M, 128]⟩ .f32) (w : FVec Ideal ⟨2, ![128, 128]⟩ .f32) :
    FVec Ideal ⟨2, ![M, 256]⟩ .f32 :=
  fun j => entry f a w (j 0) (j 1)

theorem out_apply {M : Nat} (f a : FVec Ideal ⟨2, ![M, 128]⟩ .f32) (w : FVec Ideal ⟨2, ![128, 128]⟩ .f32)
    (p : Fin M) (q : Fin 256) : out f a w (ix2 p q) = entry f a w p q := rfl

/-- In the left half an entry reads the first product. -/
theorem entry_left {M : Nat} (f a : FVec Ideal ⟨2, ![M, 128]⟩ .f32) (w : FVec Ideal ⟨2, ![128, 128]⟩ .f32)
    (p : Fin M) (q : Fin 256) (h : q.val < 128) :
    entry f a w p q = max (prod f w p ⟨q.val, h⟩) (FloatOps.ofBits (F := Ideal) .f32 0x00000000#32) := by
  unfold entry; rw [dif_pos h]

/-- In the right half it reads the second product, at the column `128` less. -/
theorem entry_right {M : Nat} (f a : FVec Ideal ⟨2, ![M, 128]⟩ .f32) (w : FVec Ideal ⟨2, ![128, 128]⟩ .f32)
    (p : Fin M) (q : Fin 256) (h : ¬ q.val < 128) (h' : q.val - 128 < 128) :
    entry f a w p q = max (prod a w p ⟨q.val - 128, h'⟩) (FloatOps.ofBits (F := Ideal) .f32 0x00000000#32) := by
  unfold entry; rw [dif_neg h]

/-- An entry reads only row `p` of the two left operands (and the weight): two triples of operands that agree on
    that row, possibly a row of arrays with different numbers of rows, have the same entry. This is what lets a
    block of rows be treated as the whole array. -/
theorem entry_congr {M M' : Nat} (f a : FVec Ideal ⟨2, ![M, 128]⟩ .f32) (f' a' : FVec Ideal ⟨2, ![M', 128]⟩ .f32)
    (w w' : FVec Ideal ⟨2, ![128, 128]⟩ .f32) (p : Fin M) (p' : Fin M') (q : Fin 256)
    (hf : ∀ k : Fin 128, f (ix2 p k) = f' (ix2 p' k)) (ha : ∀ k : Fin 128, a (ix2 p k) = a' (ix2 p' k))
    (hw : ∀ k l : Fin 128, w (ix2 k l) = w' (ix2 k l)) :
    entry f a w p q = entry f' a' w' p' q := by
  unfold entry prod
  simp only [hf, ha, hw]

end Cert.Layer

end
-- ==== Proof.Body.lean ====
/-
  The kernel body's stored value, read at one entry of its 5000 × 256 block.

  From its three loaded blocks — 5000 rows of the node features `x0`, the same 5000 rows of the neighbourhood means
  `x1`, and the whole 128 × 128 weight `x2` — the body forms the two products `x0 · x2` and `x1 · x2` (each operand
  first rounded to bf16, which over the extended reals changes nothing; each product accumulated into a zero matrix,
  which there is the plain sum over the contracted coordinate), lays them side by side along the columns, and takes
  the maximum with zero. So entry `(r, q)` of what it stores is the layer's `Layer.entry` of the three blocks.
-/
import proofs.«160083_j59322088292606_1_alg».proof.Proof.Gen.KernelIdeal.Skeleton
import proofs.«160083_j59322088292606_1_alg».proof.Proof.LibMatmulPlain
import proofs.«160083_j59322088292606_1_alg».proof.Proof.Layer
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- One product of the body at entry `(r, k)`: the operands' roundings are the identity over the extended reals, the
    dimension numbers are the plain ones (rows of the left operand against columns of the right), and the
    accumulator is zero, so the entry is the sum over the contracted coordinate. -/
theorem product_apply (x : FVec Ideal S5000x128 .f32) (w : FVec Ideal S128x128 .f32) (r : Fin 5000) (k : Fin 128) :
    matmul dot_S5000x128_S128x128_S5000x128_1_0_0_1_n_n none (truncf .bf16 x bitsLt_bf16_f32)
        (truncf .bf16 w bitsLt_bf16_f32) (constant S5000x128 .f32 0x00000000#32) (ix2 r k)
      = Layer.prod x w r k :=
  (Cert.Lib.matmul_plain_zero_apply 5000 128 128 none (truncf .bf16 x bitsLt_bf16_f32)
    (truncf .bf16 w bitsLt_bf16_f32) r k).trans rfl

/-- The stored value as the printed operations of the three loaded blocks, the intermediate names substituted. -/
theorem pay_eq (x0 x1 : FVec Ideal S5000x128 .f32) (x2 : FVec Ideal S128x128 .f32) :
    k0_pay1 (F := Ideal) x0 x1 x2
      = maximumf (concatenate S5000x256 1
          [⟨S5000x128, matmul dot_S5000x128_S128x128_S5000x128_1_0_0_1_n_n none (truncf .bf16 x0 bitsLt_bf16_f32)
              (truncf .bf16 x2 bitsLt_bf16_f32) (constant S5000x128 .f32 0x00000000#32)⟩,
           ⟨S5000x128, matmul dot_S5000x128_S128x128_S5000x128_1_0_0_1_n_n none
              (truncf .bf16 (shapeCast S5000x128 x1 shapeCasts_S5000x128_S5000x128) bitsLt_bf16_f32)
              (truncf .bf16 x2 bitsLt_bf16_f32) (constant S5000x128 .f32 0x00000000#32)⟩]
          concatenates_S5000x128_S5000x128_S5000x256_d1)
        (broadcast S5000x256 (FloatOps.ofBits (F := Ideal) .f32 0x00000000#32)) := rfl

/-- ENTRY `(r, q)` OF THE STORED BLOCK is the layer's entry of the three loaded blocks: in the left 128 columns the
    first product, in the right 128 the second at the column 128 less, clipped below at zero. -/
theorem pay_apply (x0 x1 : FVec Ideal S5000x128 .f32) (x2 : FVec Ideal S128x128 .f32) (r : Fin 5000) (q : Fin 256) :
    k0_pay1 (F := Ideal) x0 x1 x2 (ix2 r q) = Layer.entry x0 x1 x2 r q := by
  rw [pay_eq, shapeCast_self, maximumf_apply, broadcast_apply]
  by_cases hq : q.val < 128
  · rw [Layer.entry_left x0 x1 x2 r q hq]
    refine congrArg (fun v => max v (FloatOps.ofBits (F := Ideal) .f32 0x00000000#32)) ?_
    refine (concatenate_pair_apply_left (t := S5000x256) (s₁ := S5000x128) (s₂ := S5000x128) 1 _ _
      concatenates_S5000x128_S5000x128_S5000x256_d1 (ix2 r q) rfl (ix2 r ⟨q.val, hq⟩)
      (fun b => match b with | ⟨0, _⟩ => rfl | ⟨1, _⟩ => rfl)).trans ?_
    exact product_apply x0 x2 r ⟨q.val, hq⟩
  · have hq' : q.val - 128 < 128 := by have := q.isLt; omega
    rw [Layer.entry_right x0 x1 x2 r q hq hq']
    refine congrArg (fun v => max v (FloatOps.ofBits (F := Ideal) .f32 0x00000000#32)) ?_
    refine (concatenate_pair_apply_right (t := S5000x256) (s₁ := S5000x128) (s₂ := S5000x128) 1 _ _
      concatenates_S5000x128_S5000x128_S5000x256_d1 (ix2 r q) rfl rfl (ix2 r ⟨q.val - 128, hq'⟩)
      (fun b => match b with | ⟨0, _⟩ => fun _ => rfl | ⟨1, _⟩ => fun h => absurd rfl h)
      (by show q.val - 128 + 128 = q.val; omega)).trans ?_
    exact product_apply x1 x2 r ⟨q.val - 128, hq'⟩

end Cert.KernelIdeal.Body

end
-- ==== Proof.Blocks.lean ====
/-
  From the ten row blocks to the whole output array.

  The fused call runs over ten grid points. At point `t` it stages rows `5000 t … 5000 t + 4999` of the features and
  of the neighbourhood means, the whole weight, and writes back the same rows of the 50000 × 256 output. An entry of
  the layer depends only on its own row of the two left operands, so what point `t` writes back is exactly rows
  `5000 t …` of the layer of the WHOLE arrays; the ten blocks are disjoint and together cover every row, so after the
  run the output array is the layer of the three arrays as the call found them.
-/
import proofs.«160083_j59322088292606_1_alg».proof.Proof.Gen.KernelIdeal.Value
import proofs.«160083_j59322088292606_1_alg».proof.Proof.Body
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body loads and stores its whole staging buffers: through the rectangle at offsets zero. -/
theorem zero_offsets : (![0, 0] : Fin 2 → Nat) = fun _ => 0 := funext fun a => by fin_cases a <;> rfl

/-- The printed index maps, decided over the ten points: at point `t` the features, the means and the output are at
    block row `t`, block column `0`; the weight is always its one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are ten points. -/
theorem point_lt (t : Fin cfg0.N) : t.val < 10 := lt_of_lt_of_eq t.isLt N_0

/-- The layer of the three arrays as the fused call finds them. -/
def whole (c : Dev nD) : FVec Ideal S50000x256 .f32 :=
  Layer.out (V m c main_arg0) (V m c main_v17) (V m c main_arg1)

/-! ## Where a block's entry sits in its array -/

/-- Entry `(r, k)` of the features' block at point `t` is entry `(5000 t + r, k)` of the array. -/
theorem feat_emb (t : Fin cfg0.N) (r : Fin 5000) (k : Fin 128) (h : 5000 * t.val + r.val < 50000) :
    ((cfg0.win 0).blk t).view.emb (ix2 r k) = ix2 (⟨5000 * t.val + r.val, h⟩ : Fin 50000) k := by
  obtain ⟨e00, e01, -⟩ := index_maps t
  funext a; apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

/-- The same for the means' block. -/
theorem mean_emb (t : Fin cfg0.N) (r : Fin 5000) (k : Fin 128) (h : 5000 * t.val + r.val < 50000) :
    ((cfg0.win 1).blk t).view.emb (ix2 r k) = ix2 (⟨5000 * t.val + r.val, h⟩ : Fin 50000) k := by
  obtain ⟨-, -, e10, e11, -⟩ := index_maps t
  funext a; apply Fin.ext
  match a with
  | ⟨0, _⟩ => show win0_1.index t (0 : Fin 2) * 5000 + 1 * r.val = 5000 * t.val + r.val; omega
  | ⟨1, _⟩ => show win0_1.index t (1 : Fin 2) * 128 + 1 * k.val = k.val; omega

/-- The weight's one block is the weight. -/
theorem weight_emb (t : Fin cfg0.N) (k l : Fin 128) :
    ((cfg0.win 2).blk t).view.emb (ix2 k l) = ix2 k l := by
  obtain ⟨-, -, -, -, e20, e21, -⟩ := index_maps t
  funext a; apply Fin.ext
  match a with
  | ⟨0, _⟩ => show win0_2.index t (0 : Fin 2) * 128 + 1 * k.val = k.val; omega
  | ⟨1, _⟩ => show win0_2.index t (1 : Fin 2) * 128 + 1 * l.val = l.val; omega

/-- Entry `(r, q)` of the output's block at point `t` is entry `(5000 t + r, q)` of the output array. -/
theorem out_emb (t : Fin cfg0.N) (r : Fin 5000) (q : Fin 256) (h : 5000 * t.val + r.val < 50000) :
    ((cfg0.win 3).blk t).view.emb (ix2 r q) = ix2 (⟨5000 * t.val + r.val, h⟩ : Fin 50000) q := by
  obtain ⟨-, -, -, -, -, -, e30, e31⟩ := index_maps t
  funext a; apply Fin.ext
  match a with
  | ⟨0, _⟩ => show win0_3.index t (0 : Fin 2) * 5000 + 1 * r.val = 5000 * t.val + r.val; omega
  | ⟨1, _⟩ => show win0_3.index t (1 : Fin 2) * 256 + 1 * q.val = q.val; omega

/-! ## What a point writes back -/

/-- A block of the features, read at `(r, k)`, is the array at `(5000 t + r, k)`; likewise the means; the weight's
    block is the weight. This holds of any array of the window's shape. -/
theorem read_feat (A : FVec Ideal S50000x128 .f32) (t : Fin cfg0.N) (r : Fin 5000) (k : Fin 128)
    (h : 5000 * t.val + r.val < 50000) :
    ((cfg0.win 0).blk t).view.read (Elt Ideal) A (ix2 r k) = A (ix2 (⟨5000 * t.val + r.val, h⟩ : Fin 50000) k) := by
  show A (((cfg0.win 0).blk t).view.emb (ix2 r k)) = _
  rw [feat_emb t r k h]

theorem read_mean (A : FVec Ideal S50000x128 .f32) (t : Fin cfg0.N) (r : Fin 5000) (k : Fin 128)
    (h : 5000 * t.val + r.val < 50000) :
    ((cfg0.win 1).blk t).view.read (Elt Ideal) A (ix2 r k) = A (ix2 (⟨5000 * t.val + r.val, h⟩ : Fin 50000) k) := by
  show A (((cfg0.win 1).blk t).view.emb (ix2 r k)) = _
  rw [mean_emb t r k h]

theorem read_weight (A : FVec Ideal S128x128 .f32) (t : Fin cfg0.N) (k l : Fin 128) :
    ((cfg0.win 2).blk t).view.read (Elt Ideal) A (ix2 k l) = A (ix2 k l) := by
  show A (((cfg0.win 2).blk t).view.emb (ix2 k l)) = _
  rw [weight_emb t k l]

/-- The body's stored entry `(r, q)` at point `t` is entry `(5000 t + r, q)` of the layer of the whole arrays: it is
    the layer's entry of the three staged blocks, and that entry reads only row `r` of the two row blocks, which is
    row `5000 t + r` of the arrays, and the weight's one block, which is the weight. -/
theorem stored_entry (c : Dev nD) (t : Fin cfg0.N) (r : Fin 5000) (q : Fin 256) (h : 5000 * t.val + r.val < 50000) :
    k0_pay1 (iblk m c 0 t) (iblk m c 1 t) (iblk m c 2 t) (ix2 r q)
      = whole m c (ix2 (⟨5000 * t.val + r.val, h⟩ : Fin 50000) q) := by
  refine (Body.pay_apply (iblk m c 0 t) (iblk m c 1 t) (iblk m c 2 t) r q).trans ?_
  unfold whole
  rw [Layer.out_apply]
  refine Layer.entry_congr (iblk m c 0 t) (iblk m c 1 t) (V m c main_arg0) (V m c main_v17) (iblk m c 2 t)
    (V m c main_arg1) r ⟨5000 * t.val + r.val, h⟩ q (fun k => ?_) (fun k => ?_) (fun k l => ?_)
  · unfold iblk; exact read_feat (V m c main_arg0) t r k h
  · unfold iblk; exact read_mean (V m c main_v17) t r k h
  · unfold iblk; exact read_weight (V m c main_arg1) t k l

/-- WHAT POINT `t` WRITES BACK is block `t` of the layer of the whole arrays: the two 5000 × 256 arrays agree entry
    by entry, entry `(r, q)` of the first being the body's stored entry and entry `(r, q)` of the second the layer at
    `(5000 t + r, q)`. -/
theorem flushed_eq (c : Dev nD) (t : Fin cfg0.N) :
    (dats m 0 c).flushed 3 t = ((cfg0.win 3).blk t).view.read (Elt Ideal) (whole m c) := by
  rw [Value.flushed3]
  unfold out0_3
  rw [View.canon_unit_zero zero_offsets]
  simp only [View.ld_unit_zero (S := S5000x128) zero_offsets, View.ld_unit_zero (S := S128x128) zero_offsets]
  have ht := point_lt t
  have hP := stored_entry m c t
  generalize k0_pay1 (iblk m c 0 t) (iblk m c 1 t) (iblk m c 2 t) = P at hP ⊢
  generalize whole m c = G at hP ⊢
  refine funext fun (j : S5000x256.Idx) => ?_
  obtain ⟨r, q, rfl⟩ : ∃ (r : Fin 5000) (q : Fin 256), j = ix2 r q := ⟨j 0, j 1, eq_ix2 j⟩
  have hrow : 5000 * t.val + r.val < 50000 := by have := r.isLt; omega
  show P (ix2 r q) = G (((cfg0.win 3).blk t).view.emb (ix2 r q))
  rw [out_emb t r q hrow, hP r q hrow]

/-! ## The blocks cover the array -/

/-- An entry of the output array is in point `t`'s block iff each coordinate is in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v18).slice (win0_3.rect t)).set ↔ _
  rw [View.set_slice_whole, Rect.mem_set_unit]
  exact Iff.rfl

/-- Every entry `(p, q)` of the output array is in the block of the point `p / 5000`, which writes back. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, e30, e31⟩ := index_maps t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE OUTPUT ARRAY AFTER THE RUN is the layer of the three arrays as the fused call found them. -/
theorem final (c : Dev nD) : (dats m 0 c).arrAt 3 cfg0.N = whole m c :=
  (dats m 0 c).arrAt_eq_of_cover 3 (whole m c) (fun t _ => flushed_eq m c t) covered

end Cert.KernelIdeal.Blocks

end
-- ==== Proof.Agg.lean ====
/-
  What the kernel's second operand holds when the fused call is entered: the neighbourhood means.

  Before the call the program gathers the feature rows named by the edge sources (a negative source index read from
  the end), sums them per destination node into a zero array, counts the edges per destination node the same way
  from ones, clips the counts below at one, and divides. The whole chain is named here as ONE function `agg` of the
  features and the two index arrays and is never opened: the reference applies the same chain to the same arrays.
-/
import proofs.«160083_j59322088292606_1_alg».proof.Proof.Gen.KernelIdeal.Frame
import Idealize.ShloMosaic.Lib.StableHlo.Run
import Idealize.ShloMosaic.PureOps.Ideal

noncomputable section

namespace Cert.KernelIdeal.Agg

open Cert.KernelIdeal Cert.KernelIdeal.Gen Idealize.ShloMosaic Idealize.ShloMosaic.TcCoe Idealize.SL.Sem
open Idealize.ShloMosaic.StableHlo

/-- The neighbourhood means as the program's host operations compute them from the features `x0`, the edge sources
    `x2` and the edge destinations `x3`: per destination node, the sum of the gathered source rows divided by the
    number of incoming edges clipped below at one. -/
def agg (x0 : FVec Ideal S50000x128 .f32) (x2 x3 : IVec S1600000 32) : FVec Ideal S50000x128 .f32 :=
  Host.divf (F := Ideal)
    (Host.scatterAdd (F := Ideal) scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 x3)
      (Host.gather gather_S50000x128_S1600000x1_S1600000x128_1_0_n_n_0_1_1128 x0
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 50000#32))) x2))))
    (broadcastInDim S50000x128 ![0, 1] bcast_S50000x1_S50000x128_0_1
      (maximumf (F := Ideal)
        (Host.scatterAdd (F := Ideal) scatter_S50000x1_S1600000x1_S1600000x1_1_0_0_1
          (broadcastInDim S50000x1 ![] bcast_S_S50000x1 (constant (F := Ideal) S_ .f32 0x00000000#32))
          (broadcastInDim S1600000x1 ![0] bcast_S1600000_S1600000x1_0 x3)
          (broadcastInDim S1600000x1 ![] bcast_S_S1600000x1 (constant (F := Ideal) S_ .f32 0x3F800000#32)))
        (broadcastInDim S50000x1 ![] bcast_S_S50000x1 (constant (F := Ideal) S_ .f32 0x3F800000#32))))

variable (m : (ℓ : Loc nD τ sig) → Buf (Elt Ideal) ℓ)

/-- When the fused call is entered, the array its second window stages holds `agg` of the argument arrays as
    launched. -/
theorem V_agg (c : Dev nD) :
    (V m c main_v17 : FVec Ideal S50000x128 .f32)
      = agg (m ((c : Thread nD τ).loc main_arg0)) (m ((c : Thread nD τ).loc main_arg2)) (m ((c : Thread nD τ).loc main_arg3)) := by
  dsimp only [Gen.V, Gen.hostOps0]
  after_results_simp
  rfl

end Cert.KernelIdeal.Agg

end
-- ==== Proof.KernelRun.lean ====
/-
  The idealized kernel's run, read: after every weakly fair execution the result array is the layer of the argument
  arrays — the features, the neighbourhood means computed from them by the host operations before the fused call, and
  the weight — and the arguments are unchanged.
-/
import proofs.«160083_j59322088292606_1_alg».proof.Proof.Blocks
import proofs.«160083_j59322088292606_1_alg».proof.Proof.Agg

noncomputable section

namespace Cert.KernelIdeal.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer of the argument arrays as launched. -/
def result (c : Dev nD) : FVec Ideal S50000x256 .f32 :=
  Layer.out (m ((c : Thread nD τ).loc main_arg0))
    (Agg.agg (m ((c : Thread nD τ).loc main_arg0)) (m ((c : Thread nD τ).loc main_arg2)) (m ((c : Thread nD τ).loc main_arg3)))
    (m ((c : Thread nD τ).loc main_arg1))

/-- The arrays the fused call finds are the launched features and weight (no host operation writes them) and the
    means the host operations computed; so the layer of what it finds is the layer of the arguments. -/
theorem whole_eq (c : Dev nD) : Blocks.whole m c = result m c := by
  unfold Blocks.whole result
  rw [V_main_arg0, V_main_arg1, Agg.V_agg]

/-- THE RUN: the result array ends at `result`, the four arguments as launched. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((Blocks.final m c).trans (whole_eq m c)), (h c).2⟩)
    (Value.run_blocks m ρ)

end Cert.KernelIdeal.KernelRun

end
-- ==== Proof.RefLayer.lean ====
/-
  The reference's result is the layer of its arguments.

  The reference forms `features · weight`, the neighbourhood means `agg` (its stage `%18`: the gathered rows
  summed per destination node and divided by the clipped counts), `agg · weight`, joins the two products along the
  columns and clips at zero. Read at an entry `(p, q)`: the join picks the first product for `q < 128` and the second,
  at column `q − 128`, otherwise; each product is the sum over the contracted coordinate; the clip is the maximum with
  the zero word. That is `Layer.out` of the features, the stage `%18` and the weight. The stage `%18` itself is never
  opened.
-/
import proofs.«160083_j59322088292606_1_alg».proof.Proof.Gen.ReferenceIdeal.Read
import proofs.«160083_j59322088292606_1_alg».proof.Proof.Layer
import Idealize.ShloMosaic.Lib.Pipeline.Value
import Idealize.ShloMosaic.Lib.ValueIdx

noncomputable section

open scoped BigOperators

namespace Cert.ReferenceIdeal.RefLayer

open Cert.ReferenceIdeal Cert.ReferenceIdeal.Gen Cert.ReferenceIdeal.Read Idealize.ShloMosaic Idealize.ShloMosaic.ValueIdx

/-- The first product's left operand is read at row `p`, column `k`. -/
theorem lidx_v0 (p : Fin 50000) (q : Fin 128) (k : Fin 128) : lidx_main_v0 (ix2 p q) k = ix2 p k :=
  funext fun a => Fin.ext (by match a with | ⟨0, _⟩ => rfl | ⟨1, _⟩ => rfl)
/-- and its right operand at row `k`, column `q`. -/
theorem ridx_v0 (p : Fin 50000) (q : Fin 128) (k : Fin 128) : ridx_main_v0 (ix2 p q) k = ix2 k q :=
  funext fun a => Fin.ext (by match a with | ⟨0, _⟩ => rfl | ⟨1, _⟩ => rfl)
/-- The same for the second product. -/
theorem lidx_v19 (p : Fin 50000) (q : Fin 128) (k : Fin 128) : lidx_main_v19 (ix2 p q) k = ix2 p k :=
  funext fun a => Fin.ext (by match a with | ⟨0, _⟩ => rfl | ⟨1, _⟩ => rfl)
theorem ridx_v19 (p : Fin 50000) (q : Fin 128) (k : Fin 128) : ridx_main_v19 (ix2 p q) k = ix2 k q :=
  funext fun a => Fin.ext (by match a with | ⟨0, _⟩ => rfl | ⟨1, _⟩ => rfl)

/-- Entry `(p, q)` of `features · weight` is the layer's product. -/
theorem first_product (x0 : FVec Ideal S50000x128 .f32) (x1 : FVec Ideal S128x128 .f32) (p : Fin 50000) (q : Fin 128) :
    val_main_v0 (F := Ideal) x0 x1 (ix2 p q) = Layer.prod x0 x1 p q := by
  rw [val_main_v0_apply]
  simp only [lidx_v0, ridx_v0]
  rfl

/-- Entry `(p, q)` of `agg · weight` is the layer's product of the stage `%18`. -/
theorem second_product (x0 : FVec Ideal S50000x128 .f32) (x1 : FVec Ideal S128x128 .f32) (x2 x3 : IVec S1600000 32)
    (p : Fin 50000) (q : Fin 128) :
    val_main_v19 (F := Ideal) x0 x1 x2 x3 (ix2 p q) = Layer.prod (val_main_v18 (F := Ideal) x0 x2 x3) x1 p q := by
  rw [val_main_v19_apply]
  simp only [lidx_v19, ridx_v19]
  rfl

/-- THE REFERENCE'S RESULT, as a function of its arguments, is the layer of the features, the stage `%18` and the
    weight. -/
theorem result_eq (x0 : FVec Ideal S50000x128 .f32) (x1 : FVec Ideal S128x128 .f32) (x2 x3 : IVec S1600000 32) :
    val_main_v21 (F := Ideal) x0 x1 x2 x3 = Layer.out x0 (val_main_v18 (F := Ideal) x0 x2 x3) x1 := by
  funext j
  obtain ⟨p, q, rfl⟩ : ∃ (p : Fin 50000) (q : Fin 256), j = ix2 p q := ⟨j 0, j 1, eq_ix2 j⟩
  rw [Layer.out_apply, val_main_v21_apply, val_main_call0_v0_apply, val_main_call0_cst_apply]
  unfold val_main_v20
  by_cases hq : q.val < 128
  · rw [Layer.entry_left _ _ _ p q hq]
    refine congrArg (fun v => max v (FloatOps.ofBits (F := Ideal) .f32 0x00000000#32)) ?_
    refine (concatenate_pair_apply_left (t := S50000x256) (s₁ := S50000x128) (s₂ := S50000x128) 1 _ _
      concatenates_S50000x128_S50000x128_S50000x256_d1 (ix2 p q) rfl (ix2 p ⟨q.val, hq⟩)
      (fun b => match b with | ⟨0, _⟩ => rfl | ⟨1, _⟩ => rfl)).trans ?_
    exact first_product x0 x1 p ⟨q.val, hq⟩
  · have hq' : q.val - 128 < 128 := by have := q.isLt; omega
    rw [Layer.entry_right _ _ _ p q hq hq']
    refine congrArg (fun v => max v (FloatOps.ofBits (F := Ideal) .f32 0x00000000#32)) ?_
    refine (concatenate_pair_apply_right (t := S50000x256) (s₁ := S50000x128) (s₂ := S50000x128) 1 _ _
      concatenates_S50000x128_S50000x128_S50000x256_d1 (ix2 p q) rfl rfl (ix2 p ⟨q.val - 128, hq'⟩)
      (fun b => match b with | ⟨0, _⟩ => fun _ => rfl | ⟨1, _⟩ => fun h => absurd rfl h)
      (by show q.val - 128 + 128 = q.val; omega)).trans ?_
    exact second_product x0 x1 x2 x3 p ⟨q.val - 128, hq'⟩

end Cert.ReferenceIdeal.RefLayer

end
-- ==== Proof.Bridge.lean ====
/-
  The two programs compute the neighbourhood means by the same chain of host operations — the same gather, the same
  two scatter-additions into zero, the same clip at one, the same division — applied to the same arrays; only the
  names under which each program records the operations' dimension numbers differ, and those records have equal
  fields. So the reference's stage `%18` is the kernel's `agg`, operation for operation; neither is opened.
-/
import proofs.«160083_j59322088292606_1_alg».proof.Proof.Agg
import proofs.«160083_j59322088292606_1_alg».proof.Proof.Gen.ReferenceIdeal.Read

noncomputable section

namespace Cert.Bridge

open Idealize.ShloMosaic

/-- The reference's neighbourhood means are the kernel's, as functions of the features and the two index arrays. -/
theorem means_eq (x0 : FVec Ideal Cert.KernelIdeal.S50000x128 .f32) (x2 x3 : IVec Cert.KernelIdeal.S1600000 32) :
    Cert.ReferenceIdeal.Read.val_main_v18 (F := Ideal) x0 x2 x3 = Cert.KernelIdeal.Agg.agg x0 x2 x3 := rfl

end Cert.Bridge

end
-- ==== Proof.lean ====
/-
  One graph-convolution layer, computed two ways, is one function of its arguments over the extended reals.

  Both programs first form, on the host, the neighbourhood means `agg`: the feature rows named by the edge sources,
  summed per destination node and divided by the number of incoming edges clipped below at one. The reference then
  takes `features · weight` and `agg · weight`, joins them along the columns and clips at zero. The kernel does the
  same inside one fused call over ten blocks of 5000 rows: each block rounds its operands to bf16 (the identity over
  the extended reals), forms the two products into zero accumulators (there the plain sums over the contracted
  coordinate), joins and clips. An output entry depends only on its own row, so the ten row blocks assemble the
  layer of the whole arrays; the two products are the same sums of the same terms, so no law beyond that is needed
  and the inputs' finiteness is never used.

  Proved here: each program runs and leaves its arguments unchanged; the kernel's idealization rewrote nothing; and
  from memories that agree on the arguments the two idealized programs end with the same result array, `Layer.out`
  of the features, the means and the weight.
-/
import proofs.«160083_j59322088292606_1_alg».proof.Defs
import proofs.«160083_j59322088292606_1_alg».proof.Proof.Gen.Kernel
import proofs.«160083_j59322088292606_1_alg».proof.Proof.Gen.Kernel.Skeleton
import proofs.«160083_j59322088292606_1_alg».proof.Proof.Gen.Kernel.Launch
import proofs.«160083_j59322088292606_1_alg».proof.Proof.Gen.Kernel.Points
import proofs.«160083_j59322088292606_1_alg».proof.Proof.Gen.Kernel.Frame
import proofs.«160083_j59322088292606_1_alg».proof.Proof.Gen.KernelIdeal
import proofs.«160083_j59322088292606_1_alg».proof.Proof.Gen.KernelIdeal.Skeleton
import proofs.«160083_j59322088292606_1_alg».proof.Proof.Gen.KernelIdeal.Launch
import proofs.«160083_j59322088292606_1_alg».proof.Proof.Gen.KernelIdeal.Points
import proofs.«160083_j59322088292606_1_alg».proof.Proof.Gen.KernelIdeal.Frame
import proofs.«160083_j59322088292606_1_alg».proof.Proof.Gen.ReferenceIdeal
import proofs.«160083_j59322088292606_1_alg».proof.Proof.Gen.Pre_finite_inputs
import proofs.«160083_j59322088292606_1_alg».proof.Proof.Gen.KernelIdeal.Value
import proofs.«160083_j59322088292606_1_alg».proof.Proof.Gen.ReferenceIdeal.Run
import proofs.«160083_j59322088292606_1_alg».proof.Proof.Gen.ReferenceIdeal.Read
import proofs.«160083_j59322088292606_1_alg».proof.Proof.KernelRun
import proofs.«160083_j59322088292606_1_alg».proof.Proof.RefLayer
import proofs.«160083_j59322088292606_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a sequence of host operations: its run ends with the arguments unchanged. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the four arguments, the kernel's result array ends at the layer of the features,
    the kernel's means and the weight; the reference's at the layer of the features, its own means and the weight;
    the arguments agree and the two means are one function of them. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefLayer.result_eq,
    (hagree c).1, (hagree c).2.1, (hagree c).2.2.1, (hagree c).2.2.2]
  unfold Cert.KernelIdeal.KernelRun.result
  rw [Cert.Bridge.means_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
